-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x32 .f32) (main_arg16 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x32 .f32 := Host.absf main_arg15
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x32 .f32) (main_arg16 : FVec F S32 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x32 .f32) (main_arg16 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x32 .f32) (main_arg16 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S1x32 : Shape := ⟨2, ![1, 32]⟩
abbrev S512x32 : Shape := ⟨2, ![512, 32]⟩

abbrev nBuf : Space → Nat
  | .hbm => 214
  | .vmem => 34
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x32, .f32⟩
  | 16 => ⟨S32, .f32⟩
  | 17 => ⟨S1x600000, .i32⟩
  | 18 => ⟨S600000, .i32⟩
  | 19 => ⟨S50000, .i32⟩
  | 20 => ⟨S650000, .i32⟩
  | 21 => ⟨S1x600000, .i32⟩
  | 22 => ⟨S600000, .i32⟩
  | 23 => ⟨S50000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000, .f32⟩
  | 60 => ⟨S650000, .f32⟩
  | 61 => ⟨S50000x128, .f32⟩
  | 62 => ⟨S650000x1, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S650000x1, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x128, .f32⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S650000x1, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S650000x1, .f32⟩
  | 4 => ⟨S_, .i32⟩
  | 5 => ⟨S650000, .i32⟩
  | 6 => ⟨S650000, .i1⟩
  | 7 => ⟨S_, .i32⟩
  | 8 => ⟨S650000, .i32⟩
  | 9 => ⟨S650000, .i32⟩
  | 10 => ⟨S650000, .i32⟩
  | 11 => ⟨S650000x1, .i32⟩
  | 12 => ⟨S650000x128, .f32⟩
  | 13 => ⟨S650000x128, .f32⟩
  | 14 => ⟨S650000x128, .f32⟩
  | 15 => ⟨S_, .f32⟩
  | 16 => ⟨S50000x128, .f32⟩
  | 17 => ⟨S650000x1, .i32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S650000x1, .f32⟩
  | 27 => ⟨S_, .i32⟩
  | 28 => ⟨S650000, .i32⟩
  | 29 => ⟨S650000, .i1⟩
  | 30 => ⟨S_, .i32⟩
  | 31 => ⟨S650000, .i32⟩
  | 32 => ⟨S650000, .i32⟩
  | 33 => ⟨S650000, .i32⟩
  | 34 => ⟨S650000x1, .i32⟩
  | 35 => ⟨S650000x128, .f32⟩
  | 36 => ⟨S650000x128, .f32⟩
  | 37 => ⟨S650000x128, .f32⟩
  | 38 => ⟨S_, .f32⟩
  | 39 => ⟨S50000x128, .f32⟩
  | 40 => ⟨S650000x1, .i32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S650000x1, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000, .f32⟩
  | 70 => ⟨S_, .f32⟩
  | 71 => ⟨S512, .f32⟩
  | 72 => ⟨S50000x1, .i32⟩
  | 73 => ⟨S512, .f32⟩
  | 74 => ⟨S_, .f32⟩
  | 75 => ⟨S512x128, .f32⟩
  | 76 => ⟨S50000x1, .i32⟩
  | 77 => ⟨S512x128, .f32⟩
  | 78 => ⟨S_, .f32⟩
  | 79 => ⟨S512, .f32⟩
  | 80 => ⟨S512, .f32⟩
  | 81 => ⟨S512x1, .f32⟩
  | 82 => ⟨S512x128, .f32⟩
  | 83 => ⟨S512x128, .f32⟩
  | 84 => ⟨S1x32, .f32⟩
  | 85 => ⟨S512x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x32, .f32⟩
  | .local _ .vmem, ⟨32, _⟩ => ⟨S1x32, .f32⟩
  | .local _ .vmem, ⟨33, _⟩ => ⟨S512x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_cst : Ref sig .tc := ⟨.hbm, 81, rfl⟩
abbrev main_call1_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_13 : Ref sig .tc := ⟨.hbm, 109, rfl⟩
abbrev main_v71 : Ref sig .tc := ⟨.hbm, 110, rfl⟩
abbrev main_v72 : Ref sig .tc := ⟨.hbm, 111, rfl⟩
abbrev main_c_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call3_cst : Ref sig .tc := ⟨.hbm, 127, rfl⟩
abbrev main_call3_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_16 : Ref sig .tc := ⟨.hbm, 132, rfl⟩
abbrev main_v89 : Ref sig .tc := ⟨.hbm, 133, rfl⟩
abbrev main_v90 : Ref sig .tc := ⟨.hbm, 134, rfl⟩
abbrev main_c_17 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_18 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call4_cst : Ref sig .tc := ⟨.hbm, 150, rfl⟩
abbrev main_call4_v0 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_19 : Ref sig .tc := ⟨.hbm, 155, rfl⟩
abbrev main_v107 : Ref sig .tc := ⟨.hbm, 156, rfl⟩
abbrev main_v108 : Ref sig .tc := ⟨.hbm, 157, rfl⟩
abbrev main_c_20 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_21 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call5_cst : Ref sig .tc := ⟨.hbm, 173, rfl⟩
abbrev main_call5_v0 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_22 : Ref sig .tc := ⟨.hbm, 178, rfl⟩
abbrev main_v125 : Ref sig .tc := ⟨.hbm, 179, rfl⟩
abbrev main_v126 : Ref sig .tc := ⟨.hbm, 180, rfl⟩
abbrev main_c_23 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_24 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_cst_26 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_27 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_28 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S32_S1x32 : S32.ShapeCasts S1x32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x32_S512x32_1_0_0_1_n_n_wf : DotDims.WF S512x128 S128x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x32.size a ≤ S128x32.size a
  hwx6_1 : ∀ i : grid6.Coords, EltTy.bits .f32 = 32 ∨ (Rect.block (s := S128x32) S128x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x32.size a ≤ S512x32.size a
  hwx6_3 : ∀ i : grid6.Coords, EltTy.bits .f32 = 32 ∨ (Rect.block (s := S512x32) S512x32.size (cc6_transform_3 i) (hinb6_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v104) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v122) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v151) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v152) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v153) S512x32.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S512x32 : Shape := ⟨2, ![512, 32]⟩
abbrev S1x32 : Shape := ⟨2, ![1, 32]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x32, .f32⟩
  | 16 => ⟨S32, .f32⟩
  | 17 => ⟨S1x600000, .i32⟩
  | 18 => ⟨S600000, .i32⟩
  | 19 => ⟨S50000, .i32⟩
  | 20 => ⟨S650000, .i32⟩
  | 21 => ⟨S1x600000, .i32⟩
  | 22 => ⟨S600000, .i32⟩
  | 23 => ⟨S50000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000, .f32⟩
  | 60 => ⟨S650000, .f32⟩
  | 61 => ⟨S50000x128, .f32⟩
  | 62 => ⟨S650000x1, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S650000x1, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x128, .f32⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S650000x1, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S650000x1, .f32⟩
  | 4 => ⟨S_, .i32⟩
  | 5 => ⟨S650000, .i32⟩
  | 6 => ⟨S650000, .i1⟩
  | 7 => ⟨S_, .i32⟩
  | 8 => ⟨S650000, .i32⟩
  | 9 => ⟨S650000, .i32⟩
  | 10 => ⟨S650000, .i32⟩
  | 11 => ⟨S650000x1, .i32⟩
  | 12 => ⟨S650000x128, .f32⟩
  | 13 => ⟨S650000x128, .f32⟩
  | 14 => ⟨S650000x128, .f32⟩
  | 15 => ⟨S_, .f32⟩
  | 16 => ⟨S50000x128, .f32⟩
  | 17 => ⟨S650000x1, .i32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S650000x1, .f32⟩
  | 27 => ⟨S_, .i32⟩
  | 28 => ⟨S650000, .i32⟩
  | 29 => ⟨S650000, .i1⟩
  | 30 => ⟨S_, .i32⟩
  | 31 => ⟨S650000, .i32⟩
  | 32 => ⟨S650000, .i32⟩
  | 33 => ⟨S650000, .i32⟩
  | 34 => ⟨S650000x1, .i32⟩
  | 35 => ⟨S650000x128, .f32⟩
  | 36 => ⟨S650000x128, .f32⟩
  | 37 => ⟨S650000x128, .f32⟩
  | 38 => ⟨S_, .f32⟩
  | 39 => ⟨S50000x128, .f32⟩
  | 40 => ⟨S650000x1, .i32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S650000x1, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000, .f32⟩
  | 70 => ⟨S_, .f32⟩
  | 71 => ⟨S512, .f32⟩
  | 72 => ⟨S50000x1, .i32⟩
  | 73 => ⟨S512, .f32⟩
  | 74 => ⟨S_, .f32⟩
  | 75 => ⟨S512x128, .f32⟩
  | 76 => ⟨S50000x1, .i32⟩
  | 77 => ⟨S512x128, .f32⟩
  | 78 => ⟨S_, .f32⟩
  | 79 => ⟨S512, .f32⟩
  | 80 => ⟨S512, .f32⟩
  | 81 => ⟨S512x1, .f32⟩
  | 82 => ⟨S512x128, .f32⟩
  | 83 => ⟨S512x128, .f32⟩
  | 84 => ⟨S512x32, .f32⟩
  | 85 => ⟨S1x32, .f32⟩
  | 86 => ⟨S512x32, .f32⟩
  | 87 => ⟨S512x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_cst : Ref sig .tc := ⟨.hbm, 81, rfl⟩
abbrev main_call1_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_13 : Ref sig .tc := ⟨.hbm, 109, rfl⟩
abbrev main_v71 : Ref sig .tc := ⟨.hbm, 110, rfl⟩
abbrev main_v72 : Ref sig .tc := ⟨.hbm, 111, rfl⟩
abbrev main_c_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call3_cst : Ref sig .tc := ⟨.hbm, 127, rfl⟩
abbrev main_call3_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_16 : Ref sig .tc := ⟨.hbm, 132, rfl⟩
abbrev main_v89 : Ref sig .tc := ⟨.hbm, 133, rfl⟩
abbrev main_v90 : Ref sig .tc := ⟨.hbm, 134, rfl⟩
abbrev main_c_17 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_18 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call4_cst : Ref sig .tc := ⟨.hbm, 150, rfl⟩
abbrev main_call4_v0 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_19 : Ref sig .tc := ⟨.hbm, 155, rfl⟩
abbrev main_v107 : Ref sig .tc := ⟨.hbm, 156, rfl⟩
abbrev main_v108 : Ref sig .tc := ⟨.hbm, 157, rfl⟩
abbrev main_c_20 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_21 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call5_cst : Ref sig .tc := ⟨.hbm, 173, rfl⟩
abbrev main_call5_v0 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_22 : Ref sig .tc := ⟨.hbm, 178, rfl⟩
abbrev main_v125 : Ref sig .tc := ⟨.hbm, 179, rfl⟩
abbrev main_v126 : Ref sig .tc := ⟨.hbm, 180, rfl⟩
abbrev main_c_23 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_24 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_cst_26 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_27 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_28 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x32_S512x32_1_0_0_1_n_n_wf : DotDims.WF S512x128 S128x32 S512x32 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

class Facts : Prop extends Facts₀ where

variable [Facts]
-- ==== Proof.KernelRun.lean ====
/-
  The idealized kernel's run with its result kept. The network's @main is seven matrix-product launches among stretches
  of host operations; the contents of the device's buffers at the boundary after the last launch are a fold through
  those twenty-one pieces from the launch memory. Every weakly fair execution terminates, without a fault, with the
  result buffer holding what that fold leaves in it, and with the seventeen argument arrays as launched.
-/
import proofs.«101254_j1597727834503_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the
    arguments as launched: the launch over the twenty-one segments, the last thread state read against the final
    state, with the result buffer read as well as the arguments. -/
theorem run_result : θ_run defs (onTc (τ := τ) (main (F := F))) ⟨m, fun _ => 0, ρ⟩ (fun r => ∀ c : Dev nD,
      r.2.mem ((c.tc : Thread nD τ).loc main_v153) = W21 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v153 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c)⟩)

end Cert.KernelIdeal.Gen

end
-- ==== Proof.Kept.lean ====
/-
  What the host stretches of @main write, and what therefore keeps its contents.

  @main is a fold through twenty-one pieces: stretches of host operations, each writing its own result buffers and
  nothing else, and seven launches, each writing its one output array. A buffer that a stretch does not write, and that
  is no array of a launch, holds after the piece what it held before it. This file lists the buffers each stretch
  writes and chains those facts from the boundary before the first launch (boundary 3) up to each later boundary where
  a value computed early — the edge list with self loops, its destinations, the symmetric normalisation, an argument —
  is read again.
-/
import proofs.«101254_j1597727834503_1_alg».proof.Proof.Gen.KernelIdeal.Frame

set_option maxRecDepth 16384

noncomputable section

namespace Cert.KernelIdeal.Kept

open Idealize.ShloMosaic Idealize.ShloMosaic.TcCoe
open Idealize.SL Idealize.SL.Sem
open Cert.KernelIdeal Cert.KernelIdeal.Gen

variable {F : FTy → Type} [FloatOps F]

/-! ## The buffers each stretch writes -/

/-- The buffers stretch 0 writes. -/
abbrev written0 : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3]
theorem writes0 : (hostOps0 : List (HloOp τ sig (Elt F))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 0_1 writes. -/
abbrev written0_1 : List (Ref sig .tc) := [main_call0_v0, main_call0_v1, main_v17]
theorem writes0_1 : (hostOps0_1 : List (HloOp τ sig (Elt F))).Forall fun op => op.writes ⊆ (written0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 0_2 writes. -/
abbrev written0_2 : List (Ref sig .tc) := [main_c, main_v18, main_v19, main_c_4, main_v20, main_v21, main_v22, main_v23, main_v24, main_c_5, main_v25, main_v26, main_c_6, main_v27, main_v28, main_v29, main_v30, main_v31, main_v32]
theorem writes0_2 : (hostOps0_2 : List (HloOp τ sig (Elt F))).Forall fun op => op.writes ⊆ (written0_2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 1 writes. -/
abbrev written1 : List (Ref sig .tc) := [main_v34, main_c_7, main_v35, main_v36, main_c_8, main_v37, main_v38, main_v39, main_v40, main_v41, main_v42, main_v43, main_cst_9, main_v44, main_v45, main_v46, main_v47, main_v48, main_v49]
theorem writes1 : (hostOps1 : List (HloOp τ sig (Elt F))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 1_1 writes. -/
abbrev written1_1 : List (Ref sig .tc) := [main_call1_cst, main_call1_v0, main_v50]
theorem writes1_1 : (hostOps1_1 : List (HloOp τ sig (Elt F))).Forall fun op => op.writes ⊆ (written1_1.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 2 writes. -/
abbrev written2 : List (Ref sig .tc) := [main_v52, main_c_10, main_v53, main_v54, main_c_11, main_v55, main_v56, main_v57, main_v58, main_v59, main_v60, main_v61, main_cst_12, main_v62, main_v63, main_v64, main_v65, main_v66, main_v67]
theorem writes2 : (hostOps2 : List (HloOp τ sig (Elt F))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 2_1 writes. -/
abbrev written2_1 : List (Ref sig .tc) := [main_call2_cst, main_call2_v0, main_v68]
theorem writes2_1 : (hostOps2_1 : List (HloOp τ sig (Elt F))).Forall fun op => op.writes ⊆ (written2_1.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 3 writes. -/
abbrev written3 : List (Ref sig .tc) := [main_v70, main_c_13, main_v71, main_v72, main_c_14, main_v73, main_v74, main_v75, main_v76, main_v77, main_v78, main_v79, main_cst_15, main_v80, main_v81, main_v82, main_v83, main_v84, main_v85]
theorem writes3 : (hostOps3 : List (HloOp τ sig (Elt F))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 3_1 writes. -/
abbrev written3_1 : List (Ref sig .tc) := [main_call3_cst, main_call3_v0, main_v86]
theorem writes3_1 : (hostOps3_1 : List (HloOp τ sig (Elt F))).Forall fun op => op.writes ⊆ (written3_1.map (Proc.devRef (τ := τ) .tc)).toFinset := by
  simp only [hostOps3_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 4 writes. -/
abbrev written4 : List (Ref sig .tc) := [main_v88, main_c_16, main_v89, main_v90, main_c_17, main_v91, main_v92, main_v93, main_v94, main_v95, main_v96, main_v97, main_cst_18, main_v98, main_v99, main_v100, main_v101, main_v102, main_v103]
theorem writes4 : (hostOps4 : List (HloOp τ sig (Elt F))).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 4_1 writes. -/
abbrev written4_1 : List (Ref sig .tc) := [main_call4_cst, main_call4_v0, main_v104]
theorem writes4_1 : (hostOps4_1 : List (HloOp τ sig (Elt F))).Forall fun op => op.writes ⊆ (written4_1.map (Proc.devRef (τ := τ) .tc)).toFinset := by
  simp only [hostOps4_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 5 writes. -/
abbrev written5 : List (Ref sig .tc) := [main_v106, main_c_19, main_v107, main_v108, main_c_20, main_v109, main_v110, main_v111, main_v112, main_v113, main_v114, main_v115, main_cst_21, main_v116, main_v117, main_v118, main_v119, main_v120, main_v121]
theorem writes5 : (hostOps5 : List (HloOp τ sig (Elt F))).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 5_1 writes. -/
abbrev written5_1 : List (Ref sig .tc) := [main_call5_cst, main_call5_v0, main_v122]
theorem writes5_1 : (hostOps5_1 : List (HloOp τ sig (Elt F))).Forall fun op => op.writes ⊆ (written5_1.map (Proc.devRef (τ := τ) .tc)).toFinset := by
  simp only [hostOps5_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers stretch 6 writes. -/
abbrev written6 : List (Ref sig .tc) := [main_v124, main_c_22, main_v125, main_v126, main_c_23, main_v127, main_v128, main_v129, main_v130, main_v131, main_v132, main_v133, main_cst_24, main_v134, main_v135, main_v136, main_v137, main_v138, main_v139, main_cst_25, main_v140, main_cst_26, main_v141, main_v142, main_v143, main_cst_27, main_v144, main_v145, main_v146, main_cst_28, main_v147, main_v148, main_v149, main_v150, main_v151, main_v152]
theorem writes6 : (hostOps6 : List (HloOp τ sig (Elt F))).Forall fun op => op.writes ⊆ (written6.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

variable (m : (ℓ : Loc nD τ sig) → Buf (Elt F) ℓ) (ρ : Dev nD → PrngReg) (c : Dev nD)

/-! ## From the launch memory to boundary 3 -/

/-- A buffer the first three stretches do not write holds at boundary 3 what the launch memory held. -/
theorem at3 (r : Ref sig .tc) (h : r ∉ written0 ∧ r ∉ written0_1 ∧ r ∉ written0_2) :
    W3 m ρ c (Proc.devRef .tc r) = m ((c : Thread nD τ).loc r) :=
  (StableHlo.after_of_writes_sub hostOps0_2 _ writes0_2 h.2.2).trans
    ((StableHlo.after_of_writes_sub hostOps0_1 _ writes0_1 h.2.1).trans
      (StableHlo.after_of_writes_sub hostOps0 _ writes0 h.1))

/-! ## From boundary 3 on: one step per piece -/

abbrev Fresh4 (r : Ref sig .tc) : Prop := ∀ w, Pipeline.arrRef spec0 w ≠ r
theorem to4 (r : Ref sig .tc) (h : Fresh4 r) : W4 m ρ c (Proc.devRef .tc r) = W3 m ρ c (Proc.devRef .tc r) :=
  W4_of_ne m ρ c r h

abbrev Fresh6 (r : Ref sig .tc) : Prop := Fresh4 r ∧ r ∉ written1 ∧ r ∉ written1_1
theorem to6 (r : Ref sig .tc) (h : Fresh6 r) : W6 m ρ c (Proc.devRef .tc r) = W3 m ρ c (Proc.devRef .tc r) :=
  (StableHlo.after_of_writes_sub hostOps1_1 _ writes1_1 h.2.2).trans
    ((StableHlo.after_of_writes_sub hostOps1 _ writes1 h.2.1).trans (to4 m ρ c r h.1))
abbrev Fresh7 (r : Ref sig .tc) : Prop := Fresh6 r ∧ ∀ w, Pipeline.arrRef spec1 w ≠ r
theorem to7 (r : Ref sig .tc) (h : Fresh7 r) : W7 m ρ c (Proc.devRef .tc r) = W3 m ρ c (Proc.devRef .tc r) :=
  (W7_of_ne m ρ c r h.2).trans (to6 m ρ c r h.1)

abbrev Fresh9 (r : Ref sig .tc) : Prop := Fresh7 r ∧ r ∉ written2 ∧ r ∉ written2_1
theorem to9 (r : Ref sig .tc) (h : Fresh9 r) : W9 m ρ c (Proc.devRef .tc r) = W3 m ρ c (Proc.devRef .tc r) :=
  (StableHlo.after_of_writes_sub hostOps2_1 _ writes2_1 h.2.2).trans
    ((StableHlo.after_of_writes_sub hostOps2 _ writes2 h.2.1).trans (to7 m ρ c r h.1))
abbrev Fresh10 (r : Ref sig .tc) : Prop := Fresh9 r ∧ ∀ w, Pipeline.arrRef spec2 w ≠ r
theorem to10 (r : Ref sig .tc) (h : Fresh10 r) : W10 m ρ c (Proc.devRef .tc r) = W3 m ρ c (Proc.devRef .tc r) :=
  (W10_of_ne m ρ c r h.2).trans (to9 m ρ c r h.1)

abbrev Fresh12 (r : Ref sig .tc) : Prop := Fresh10 r ∧ r ∉ written3 ∧ r ∉ written3_1
theorem to12 (r : Ref sig .tc) (h : Fresh12 r) : W12 m ρ c (Proc.devRef .tc r) = W3 m ρ c (Proc.devRef .tc r) :=
  (StableHlo.after_of_writes_sub hostOps3_1 _ writes3_1 h.2.2).trans
    ((StableHlo.after_of_writes_sub hostOps3 _ writes3 h.2.1).trans (to10 m ρ c r h.1))
abbrev Fresh13 (r : Ref sig .tc) : Prop := Fresh12 r ∧ ∀ w, Pipeline.arrRef spec3 w ≠ r
theorem to13 (r : Ref sig .tc) (h : Fresh13 r) : W13 m ρ c (Proc.devRef .tc r) = W3 m ρ c (Proc.devRef .tc r) :=
  (W13_of_ne m ρ c r h.2).trans (to12 m ρ c r h.1)

abbrev Fresh15 (r : Ref sig .tc) : Prop := Fresh13 r ∧ r ∉ written4 ∧ r ∉ written4_1
theorem to15 (r : Ref sig .tc) (h : Fresh15 r) : W15 m ρ c (Proc.devRef .tc r) = W3 m ρ c (Proc.devRef .tc r) :=
  (StableHlo.after_of_writes_sub hostOps4_1 _ writes4_1 h.2.2).trans
    ((StableHlo.after_of_writes_sub hostOps4 _ writes4 h.2.1).trans (to13 m ρ c r h.1))
abbrev Fresh16 (r : Ref sig .tc) : Prop := Fresh15 r ∧ ∀ w, Pipeline.arrRef spec4 w ≠ r
theorem to16 (r : Ref sig .tc) (h : Fresh16 r) : W16 m ρ c (Proc.devRef .tc r) = W3 m ρ c (Proc.devRef .tc r) :=
  (W16_of_ne m ρ c r h.2).trans (to15 m ρ c r h.1)

abbrev Fresh18 (r : Ref sig .tc) : Prop := Fresh16 r ∧ r ∉ written5 ∧ r ∉ written5_1
theorem to18 (r : Ref sig .tc) (h : Fresh18 r) : W18 m ρ c (Proc.devRef .tc r) = W3 m ρ c (Proc.devRef .tc r) :=
  (StableHlo.after_of_writes_sub hostOps5_1 _ writes5_1 h.2.2).trans
    ((StableHlo.after_of_writes_sub hostOps5 _ writes5 h.2.1).trans (to16 m ρ c r h.1))
abbrev Fresh19 (r : Ref sig .tc) : Prop := Fresh18 r ∧ ∀ w, Pipeline.arrRef spec5 w ≠ r
theorem to19 (r : Ref sig .tc) (h : Fresh19 r) : W19 m ρ c (Proc.devRef .tc r) = W3 m ρ c (Proc.devRef .tc r) :=
  (W19_of_ne m ρ c r h.2).trans (to18 m ρ c r h.1)

abbrev Fresh20 (r : Ref sig .tc) : Prop := Fresh19 r ∧ r ∉ written6
theorem to20 (r : Ref sig .tc) (h : Fresh20 r) : W20 m ρ c (Proc.devRef .tc r) = W3 m ρ c (Proc.devRef .tc r) :=
  (StableHlo.after_of_writes_sub hostOps6 _ writes6 h.2).trans (to19 m ρ c r h.1)

end Cert.KernelIdeal.Kept

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.MatmulAt.lean ====
/-
  The dense products of this network, read entry by entry over the extended reals.

  Each graph-convolution layer multiplies the 50000 x 128 node features by a 128 x 128 weight. The kernel does it ten
  rows-blocks at a time: a 5000 x 128 block of features, rounded to a narrower float format (the identity on the
  extended reals), times the whole weight, accumulated into zeros. The reference does one 50000 x 128 product. Both are
  plain matrix products, so the entry at row r and column c of either is the finite sum over k of X (r, k) * W (k, c);
  this file states that for the block product, for the whole product, and for the last 512 x 128 by 128 x 32 product,
  whose kernel form also adds the 32 biases laid along every row.
-/
import proofs.«101254_j1597727834503_1_alg».proof.KernelIdeal
import proofs.«101254_j1597727834503_1_alg».proof.ReferenceIdeal
import proofs.«101254_j1597727834503_1_alg».proof.Proof.Gen.KernelIdeal.Skeleton
import proofs.«101254_j1597727834503_1_alg».proof.Proof.Gen.ReferenceIdeal
import proofs.«101254_j1597727834503_1_alg».proof.Proof.LibDotIx2
import Idealize.ShloMosaic.Lib.Pipeline.Value
import Idealize.ShloMosaic.Lib.ValueLayout
import Idealize.ShloMosaic.Lib.KernelVsHost

noncomputable section

open scoped BigOperators

namespace Cert.MatmulAt

open Idealize.ShloMosaic Idealize.ShloMosaic.ValueIdx

/-- The block product's dimension numbers are those of a plain 5000 x 128 by 128 x 128 product. -/
theorem plain_block : PlainDot (M := 5000) (K := 128) (N := 128) Cert.KernelIdeal.dot_S5000x128_S128x128_S5000x128_1_0_0_1_n_n where
  rank := rfl
  size := rfl
  l0 := fun j q => by simp [DotDims.lhsIdx, Cert.KernelIdeal.dot_S5000x128_S128x128_S5000x128_1_0_0_1_n_n]; rfl
  l1 := fun j q => by simp [DotDims.lhsIdx, Cert.KernelIdeal.dot_S5000x128_S128x128_S5000x128_1_0_0_1_n_n]; rfl
  r0 := fun j q => by simp [DotDims.rhsIdx, Cert.KernelIdeal.dot_S5000x128_S128x128_S5000x128_1_0_0_1_n_n]; rfl
  r1 := fun j q => by simp [DotDims.rhsIdx, Cert.KernelIdeal.dot_S5000x128_S128x128_S5000x128_1_0_0_1_n_n]; rfl

/-- The reference's layer product is a plain 50000 x 128 by 128 x 128 product. -/
theorem plain_whole : PlainDot (M := 50000) (K := 128) (N := 128) Cert.ReferenceIdeal.dot_S50000x128_S128x128_S50000x128_1_0_0_1_n_n where
  rank := rfl
  size := rfl
  l0 := fun j q => by simp [DotDims.lhsIdx, Cert.ReferenceIdeal.dot_S50000x128_S128x128_S50000x128_1_0_0_1_n_n]; rfl
  l1 := fun j q => by simp [DotDims.lhsIdx, Cert.ReferenceIdeal.dot_S50000x128_S128x128_S50000x128_1_0_0_1_n_n]; rfl
  r0 := fun j q => by simp [DotDims.rhsIdx, Cert.ReferenceIdeal.dot_S50000x128_S128x128_S50000x128_1_0_0_1_n_n]; rfl
  r1 := fun j q => by simp [DotDims.rhsIdx, Cert.ReferenceIdeal.dot_S50000x128_S128x128_S50000x128_1_0_0_1_n_n]; rfl

/-- The two programs' last product, 512 x 128 by 128 x 32, has one set of dimension numbers. -/
theorem dot_last_eq : Cert.KernelIdeal.dot_S512x128_S128x32_S512x32_1_0_0_1_n_n = Cert.ReferenceIdeal.dot_S512x128_S128x32_S512x32_1_0_0_1_n_n := rfl

local notation "B5000" => (⟨2, ![5000, 128]⟩ : Shape)
local notation "A50000" => (⟨2, ![50000, 128]⟩ : Shape)
local notation "W128" => (⟨2, ![128, 128]⟩ : Shape)

/-- Entry (r, q) of the reference's layer product: the sum over k of X (r, k) * W (k, q). -/
theorem whole_at (X : FVec Ideal A50000 .f32) (W : FVec Ideal W128 .f32) (r : Fin 50000) (q : Fin 128) :
    Host.dotGeneral Cert.ReferenceIdeal.dot_S50000x128_S128x128_S50000x128_1_0_0_1_n_n none X W (ix2 r q)
      = ∑ k : Fin 128, (X (ix2 r k) : EReal) * (W (ix2 k q) : EReal) :=
  dotGeneral_ix2_any plain_whole none .single X W r q

/-- Entry (p, q) of a block product into zeros, the operands rounded to any formats first. -/
theorem block_at (hbits : FTy.bf16.bits < FTy.f32.bits) (x0 : FVec Ideal B5000 .f32) (x1 : FVec Ideal W128 .f32) (p : Fin 5000) (q : Fin 128) :
    matmul Cert.KernelIdeal.dot_S5000x128_S128x128_S5000x128_1_0_0_1_n_n none
        (truncf .bf16 x0 hbits) (truncf .bf16 x1 hbits)
        (constant B5000 .f32 0x00000000#32) (ix2 p q)
      = ∑ k : Fin 128, (x0 (ix2 p k) : EReal) * (x1 (ix2 k q) : EReal) :=
  matmul_zero_ix2_any plain_block none _ _ p q

/-- THE BLOCK IS A BLOCK OF THE WHOLE. If x0 is rows 5000 b … 5000 b + 4999 of X and x1 is W, entry (p, q) of the
    block product is entry (5000 b + p, q) of the whole product: both are the same sum over k. -/
theorem block_eq_whole (hbits : FTy.bf16.bits < FTy.f32.bits) (X : FVec Ideal A50000 .f32) (W : FVec Ideal W128 .f32)
    (x0 : FVec Ideal B5000 .f32) (x1 : FVec Ideal W128 .f32) (b : ℕ) (hb : b < 10)
    (h0 : ∀ (p : Fin 5000) (k : Fin 128), x0 (ix2 p k) = X (ix2 ⟨5000 * b + p.val, by omega⟩ k))
    (h1 : ∀ (k q : Fin 128), x1 (ix2 k q) = W (ix2 k q))
    (p : Fin 5000) (q : Fin 128) :
    matmul Cert.KernelIdeal.dot_S5000x128_S128x128_S5000x128_1_0_0_1_n_n none
        (truncf .bf16 x0 hbits) (truncf .bf16 x1 hbits)
        (constant B5000 .f32 0x00000000#32) (ix2 p q)
      = Host.dotGeneral Cert.ReferenceIdeal.dot_S50000x128_S128x128_S50000x128_1_0_0_1_n_n none X W (ix2 ⟨5000 * b + p.val, by omega⟩ q) := by
  rw [block_at, whole_at]
  exact Finset.sum_congr rfl fun k _ => by rw [h0 p k, h1 k q]

end Cert.MatmulAt

end
-- ==== Proof.Region0.lean ====
/-
  Launch 0 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_arg0) (V c main_arg3)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_origin]
  simp only [View.ld_unit_zero (S := S5000x128) zero_origin, View.ld_unit_zero (S := S128x128) zero_origin]
  obtain ⟨e0, e1, e2, e3, e4, e5⟩ := block_rows t
  have hN : cfg0.N = 10 := N_0
  have ht : t.val < 10 := by have := t.isLt; omega
  funext j
  obtain ⟨p, q, rfl⟩ : ∃ (p : Fin 5000) (q : Fin 128), j = ix2 p q := ⟨j 0, j 1, eq_ix2 j⟩
  unfold k0_pay1
  refine (Cert.MatmulAt.block_eq_whole (by decide) (V c main_arg0) (V c main_arg3) (iblk0 V c 0 t) (iblk0 V c 1 t) t.val ht ?_ ?_ p q).trans ?_
  · intro p' k'
    show V c main_arg0 (((cfg0.win 0).blk t).view.emb (ix2 p' k')) = V c main_arg0 (ix2 ⟨5000 * t.val + p'.val, by omega⟩ k')
    refine congrArg (V c main_arg0) (funext fun a => Fin.ext ?_)
    match a with
    | ⟨0, _⟩ => show win0_0.index t (0 : Fin 2) * 5000 + 1 * p'.val = 5000 * t.val + p'.val; omega
    | ⟨1, _⟩ => show win0_0.index t (1 : Fin 2) * 128 + 1 * k'.val = k'.val; omega
  · intro k' q'
    show V c main_arg3 (((cfg0.win 1).blk t).view.emb (ix2 k' q')) = V c main_arg3 (ix2 k' q')
    refine congrArg (V c main_arg3) (funext fun a => Fin.ext ?_)
    match a with
    | ⟨0, _⟩ => show win0_1.index t (0 : Fin 2) * 128 + 1 * k'.val = k'.val; omega
    | ⟨1, _⟩ => show win0_1.index t (1 : Fin 2) * 128 + 1 * q'.val = q'.val; omega
  · show product V c (ix2 ⟨5000 * t.val + p.val, by omega⟩ q) = product V c (((cfg0.win 2).blk t).view.emb (ix2 p q))
    refine congrArg (product V c) (funext fun a => Fin.ext ?_)
    match a with
    | ⟨0, _⟩ => show 5000 * t.val + p.val = win0_2.index t (0 : Fin 2) * 5000 + 1 * p.val; omega
    | ⟨1, _⟩ => show q.val = win0_2.index t (1 : Fin 2) * 128 + 1 * q.val; omega

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every row of the output lies in the block of the point numbered by its quotient by 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨e0, e1, e2, e3, e4, e5⟩ := block_rows t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the whole product of the two arrays as the launch found them. -/
theorem output_eq (c : Dev nD) : (dat0 V c).arrAt 2 cfg0.N = product V c :=
  (dat0 V c).arrAt_eq_of_cover 2 (product V c) (fun t _ => flushed_eq V c t) (covered)

end Cert.KernelIdeal.Region0

end
-- ==== Proof.Region1.lean ====
/-
  Launch 1 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_v50) (V c main_arg5)

/-- What point t writes back is block t of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_origin]
  simp only [View.ld_unit_zero (S := S5000x128) zero_origin, View.ld_unit_zero (S := S128x128) zero_origin]
  obtain ⟨e0, e1, e2, e3, e4, e5⟩ := block_rows t
  have hN : cfg1.N = 10 := N_1
  have ht : t.val < 10 := by have := t.isLt; omega
  funext j
  obtain ⟨p, q, rfl⟩ : ∃ (p : Fin 5000) (q : Fin 128), j = ix2 p q := ⟨j 0, j 1, eq_ix2 j⟩
  unfold k1_pay1
  simp only [shapeCast_self]
  refine (Cert.MatmulAt.block_eq_whole (by decide) (V c main_v50) (V c main_arg5) (iblk1 V c 0 t) (iblk1 V c 1 t) t.val ht ?_ ?_ p q).trans ?_
  · intro p' k'
    show V c main_v50 (((cfg1.win 0).blk t).view.emb (ix2 p' k')) = V c main_v50 (ix2 ⟨5000 * t.val + p'.val, by omega⟩ k')
    refine congrArg (V c main_v50) (funext fun a => Fin.ext ?_)
    match a with
    | ⟨0, _⟩ => show win1_0.index t (0 : Fin 2) * 5000 + 1 * p'.val = 5000 * t.val + p'.val; omega
    | ⟨1, _⟩ => show win1_0.index t (1 : Fin 2) * 128 + 1 * k'.val = k'.val; omega
  · intro k' q'
    show V c main_arg5 (((cfg1.win 1).blk t).view.emb (ix2 k' q')) = V c main_arg5 (ix2 k' q')
    refine congrArg (V c main_arg5) (funext fun a => Fin.ext ?_)
    match a with
    | ⟨0, _⟩ => show win1_1.index t (0 : Fin 2) * 128 + 1 * k'.val = k'.val; omega
    | ⟨1, _⟩ => show win1_1.index t (1 : Fin 2) * 128 + 1 * q'.val = q'.val; omega
  · show product V c (ix2 ⟨5000 * t.val + p.val, by omega⟩ q) = product V c (((cfg1.win 2).blk t).view.emb (ix2 p q))
    refine congrArg (product V c) (funext fun a => Fin.ext ?_)
    match a with
    | ⟨0, _⟩ => show 5000 * t.val + p.val = win1_2.index t (0 : Fin 2) * 5000 + 1 * p.val; omega
    | ⟨1, _⟩ => show q.val = win1_2.index t (1 : Fin 2) * 128 + 1 * q.val; omega

/-- An index of the output array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Every row of the output lies in the block of the point numbered by its quotient by 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨e0, e1, e2, e3, e4, e5⟩ := block_rows t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the output array is the whole product of the two arrays as the launch found them. -/
theorem output_eq (c : Dev nD) : (dat1 V c).arrAt 2 cfg1.N = product V c :=
  (dat1 V c).arrAt_eq_of_cover 2 (product V c) (fun t _ => flushed_eq V c t) (covered)

end Cert.KernelIdeal.Region1

end
-- ==== Proof.Region2.lean ====
/-
  Launch 2 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_v68) (V c main_arg7)

/-- What point t writes back is block t of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero zero_origin]
  simp only [View.ld_unit_zero (S := S5000x128) zero_origin, View.ld_unit_zero (S := S128x128) zero_origin]
  obtain ⟨e0, e1, e2, e3, e4, e5⟩ := block_rows t
  have hN : cfg2.N = 10 := N_2
  have ht : t.val < 10 := by have := t.isLt; omega
  funext j
  obtain ⟨p, q, rfl⟩ : ∃ (p : Fin 5000) (q : Fin 128), j = ix2 p q := ⟨j 0, j 1, eq_ix2 j⟩
  unfold k2_pay1
  simp only [shapeCast_self]
  refine (Cert.MatmulAt.block_eq_whole (by decide) (V c main_v68) (V c main_arg7) (iblk2 V c 0 t) (iblk2 V c 1 t) t.val ht ?_ ?_ p q).trans ?_
  · intro p' k'
    show V c main_v68 (((cfg2.win 0).blk t).view.emb (ix2 p' k')) = V c main_v68 (ix2 ⟨5000 * t.val + p'.val, by omega⟩ k')
    refine congrArg (V c main_v68) (funext fun a => Fin.ext ?_)
    match a with
    | ⟨0, _⟩ => show win2_0.index t (0 : Fin 2) * 5000 + 1 * p'.val = 5000 * t.val + p'.val; omega
    | ⟨1, _⟩ => show win2_0.index t (1 : Fin 2) * 128 + 1 * k'.val = k'.val; omega
  · intro k' q'
    show V c main_arg7 (((cfg2.win 1).blk t).view.emb (ix2 k' q')) = V c main_arg7 (ix2 k' q')
    refine congrArg (V c main_arg7) (funext fun a => Fin.ext ?_)
    match a with
    | ⟨0, _⟩ => show win2_1.index t (0 : Fin 2) * 128 + 1 * k'.val = k'.val; omega
    | ⟨1, _⟩ => show win2_1.index t (1 : Fin 2) * 128 + 1 * q'.val = q'.val; omega
  · show product V c (ix2 ⟨5000 * t.val + p.val, by omega⟩ q) = product V c (((cfg2.win 2).blk t).view.emb (ix2 p q))
    refine congrArg (product V c) (funext fun a => Fin.ext ?_)
    match a with
    | ⟨0, _⟩ => show 5000 * t.val + p.val = win2_2.index t (0 : Fin 2) * 5000 + 1 * p.val; omega
    | ⟨1, _⟩ => show q.val = win2_2.index t (1 : Fin 2) * 128 + 1 * q.val; omega

/-- An index of the output array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v69).slice (win2_2.rect t)).set ↔ _
  rw [View.set_slice_whole, Rect.mem_set_unit]
  exact Iff.rfl

/-- Every row of the output lies in the block of the point numbered by its quotient by 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by omega⟩
  obtain ⟨e0, e1, e2, e3, e4, e5⟩ := block_rows t
  have e4' : win2_2.index t (0 : Fin 2) = (i 0).val / 5000 := e4
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the output array is the whole product of the two arrays as the launch found them. -/
theorem output_eq (c : Dev nD) : (dat2 V c).arrAt 2 cfg2.N = product V c :=
  (dat2 V c).arrAt_eq_of_cover 2 (product V c) (fun t _ => flushed_eq V c t) (covered)

end Cert.KernelIdeal.Region2

end
-- ==== Proof.Region3.lean ====
/-
  Launch 3 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_v86) (V c main_arg9)

/-- What point t writes back is block t of the whole product. -/
theorem flushed_eq (c : Dev nD) (t : Fin cfg3.N) :
    (dat3 V c).flushed 2 t = ((cfg3.win 2).blk t).view.read (Elt Ideal) (product V c) := by
  show (cfg3.win 2).cut (grid3.coords t) ((dat3 V c).after 2 t) = _
  rw [after3_2]
  unfold out3_2
  rw [View.canon_unit_zero zero_origin]
  simp only [View.ld_unit_zero (S := S5000x128) zero_origin, View.ld_unit_zero (S := S128x128) zero_origin]
  obtain ⟨e0, e1, e2, e3, e4, e5⟩ := block_rows t
  have hN : cfg3.N = 10 := N_3
  have ht : t.val < 10 := by have := t.isLt; omega
  funext j
  obtain ⟨p, q, rfl⟩ : ∃ (p : Fin 5000) (q : Fin 128), j = ix2 p q := ⟨j 0, j 1, eq_ix2 j⟩
  unfold k3_pay1
  simp only [shapeCast_self]
  refine (Cert.MatmulAt.block_eq_whole (by decide) (V c main_v86) (V c main_arg9) (iblk3 V c 0 t) (iblk3 V c 1 t) t.val ht ?_ ?_ p q).trans ?_
  · intro p' k'
    show V c main_v86 (((cfg3.win 0).blk t).view.emb (ix2 p' k')) = V c main_v86 (ix2 ⟨5000 * t.val + p'.val, by omega⟩ k')
    refine congrArg (V c main_v86) (funext fun a => Fin.ext ?_)
    match a with
    | ⟨0, _⟩ => show win3_0.index t (0 : Fin 2) * 5000 + 1 * p'.val = 5000 * t.val + p'.val; omega
    | ⟨1, _⟩ => show win3_0.index t (1 : Fin 2) * 128 + 1 * k'.val = k'.val; omega
  · intro k' q'
    show V c main_arg9 (((cfg3.win 1).blk t).view.emb (ix2 k' q')) = V c main_arg9 (ix2 k' q')
    refine congrArg (V c main_arg9) (funext fun a => Fin.ext ?_)
    match a with
    | ⟨0, _⟩ => show win3_1.index t (0 : Fin 2) * 128 + 1 * k'.val = k'.val; omega
    | ⟨1, _⟩ => show win3_1.index t (1 : Fin 2) * 128 + 1 * q'.val = q'.val; omega
  · show product V c (ix2 ⟨5000 * t.val + p.val, by omega⟩ q) = product V c (((cfg3.win 2).blk t).view.emb (ix2 p q))
    refine congrArg (product V c) (funext fun a => Fin.ext ?_)
    match a with
    | ⟨0, _⟩ => show 5000 * t.val + p.val = win3_2.index t (0 : Fin 2) * 5000 + 1 * p.val; omega
    | ⟨1, _⟩ => show q.val = win3_2.index t (1 : Fin 2) * 128 + 1 * q.val; omega

/-- An index of the output array is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v87).slice (win3_2.rect t)).set ↔ _
  rw [View.set_slice_whole, Rect.mem_set_unit]
  exact Iff.rfl

/-- Every row of the output lies in the block of the point numbered by its quotient by 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨e0, e1, e2, e3, e4, e5⟩ := block_rows t
  have e4' : win3_2.index t (0 : Fin 2) = (i 0).val / 5000 := e4
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the launch the output array is the whole product of the two arrays as the launch found them. -/
theorem output_eq (c : Dev nD) : (dat3 V c).arrAt 2 cfg3.N = product V c :=
  (dat3 V c).arrAt_eq_of_cover 2 (product V c) (fun t _ => flushed_eq V c t) (covered)

end Cert.KernelIdeal.Region3

end
-- ==== Proof.Region4.lean ====
/-
  Launch 4 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_v104) (V c main_arg11)

/-- What point t writes back is block t of the whole product. -/
theorem flushed_eq (c : Dev nD) (t : Fin cfg4.N) :
    (dat4 V c).flushed 2 t = ((cfg4.win 2).blk t).view.read (Elt Ideal) (product V c) := by
  show (cfg4.win 2).cut (grid4.coords t) ((dat4 V c).after 2 t) = _
  rw [after4_2]
  unfold out4_2
  rw [View.canon_unit_zero zero_origin]
  simp only [View.ld_unit_zero (S := S5000x128) zero_origin, View.ld_unit_zero (S := S128x128) zero_origin]
  obtain ⟨e0, e1, e2, e3, e4, e5⟩ := block_rows t
  have hN : cfg4.N = 10 := N_4
  have ht : t.val < 10 := by have := t.isLt; omega
  funext j
  obtain ⟨p, q, rfl⟩ : ∃ (p : Fin 5000) (q : Fin 128), j = ix2 p q := ⟨j 0, j 1, eq_ix2 j⟩
  unfold k4_pay1
  simp only [shapeCast_self]
  refine (Cert.MatmulAt.block_eq_whole (by decide) (V c main_v104) (V c main_arg11) (iblk4 V c 0 t) (iblk4 V c 1 t) t.val ht ?_ ?_ p q).trans ?_
  · intro p' k'
    show V c main_v104 (((cfg4.win 0).blk t).view.emb (ix2 p' k')) = V c main_v104 (ix2 ⟨5000 * t.val + p'.val, by omega⟩ k')
    refine congrArg (V c main_v104) (funext fun a => Fin.ext ?_)
    match a with
    | ⟨0, _⟩ => show win4_0.index t (0 : Fin 2) * 5000 + 1 * p'.val = 5000 * t.val + p'.val; omega
    | ⟨1, _⟩ => show win4_0.index t (1 : Fin 2) * 128 + 1 * k'.val = k'.val; omega
  · intro k' q'
    show V c main_arg11 (((cfg4.win 1).blk t).view.emb (ix2 k' q')) = V c main_arg11 (ix2 k' q')
    refine congrArg (V c main_arg11) (funext fun a => Fin.ext ?_)
    match a with
    | ⟨0, _⟩ => show win4_1.index t (0 : Fin 2) * 128 + 1 * k'.val = k'.val; omega
    | ⟨1, _⟩ => show win4_1.index t (1 : Fin 2) * 128 + 1 * q'.val = q'.val; omega
  · show product V c (ix2 ⟨5000 * t.val + p.val, by omega⟩ q) = product V c (((cfg4.win 2).blk t).view.emb (ix2 p q))
    refine congrArg (product V c) (funext fun a => Fin.ext ?_)
    match a with
    | ⟨0, _⟩ => show 5000 * t.val + p.val = win4_2.index t (0 : Fin 2) * 5000 + 1 * p.val; omega
    | ⟨1, _⟩ => show q.val = win4_2.index t (1 : Fin 2) * 128 + 1 * q.val; omega

/-- An index of the output array is in point t's block iff each coordinate is in the block's range on its axis. -/
theorem mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v105).slice (win4_2.rect t)).set ↔ _
  rw [View.set_slice_whole, Rect.mem_set_unit]
  exact Iff.rfl

/-- Every row of the output lies in the block of the point numbered by its quotient by 5000. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by omega⟩
  obtain ⟨e0, e1, e2, e3, e4, e5⟩ := block_rows t
  have e4' : win4_2.index t (0 : Fin 2) = (i 0).val / 5000 := e4
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the launch the output array is the whole product of the two arrays as the launch found them. -/
theorem output_eq (c : Dev nD) : (dat4 V c).arrAt 2 cfg4.N = product V c :=
  (dat4 V c).arrAt_eq_of_cover 2 (product V c) (fun t _ => flushed_eq V c t) (covered)

end Cert.KernelIdeal.Region4

end
-- ==== Proof.Region5.lean ====
/-
  Launch 5 of the network: a layer's dense product, ten blocks of 5000 rows.

  At grid point t the launch stages rows 5000 t … 5000 t + 4999 of the feature array and the whole 128 x 128 weight,
  multiplies them into zeros, and writes the 5000 x 128 result back to the same rows of the output array. Entry (p, q)
  of that block is the sum over k of X (5000 t + p, k) * W (k, q), which is entry (5000 t + p, q) of the one
  50000 x 128 product of the whole arrays. The ten blocks tile the output (row r lies in the block of point r / 5000),
  so after the launch the output array is that whole product of the two arrays as the launch found them.
-/
import proofs.«101254_j1597727834503_1_alg».proof.Proof.Gen.KernelIdeal.Frame
import proofs.«101254_j1597727834503_1_alg».proof.Proof.MatmulAt
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps over the ten grid points: the feature window and the output window sit at block row t,
    the weight window at its one block. -/
theorem block_rows : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The whole product of the two arrays the launch reads. -/
abbrev product (c : Dev nD) : S50000x128.Idx → EReal :=
  Host.dotGeneral (F := Ideal) (φ₁ := .f32) (φ₂ := .f32) Cert.ReferenceIdeal.dot_S50000x128_S128x128_S50000x128_1_0_0_1_n_n none (V c main_v122) (V c main_arg13)

/-- What point t writes back is block t of the whole product. -/
theorem flushed_eq (c : Dev nD) (t : Fin cfg5.N) :
    (dat5 V c).flushed 2 t = ((cfg5.win 2).blk t).view.read (Elt Ideal) (product V c) := by
  show (cfg5.win 2).cut (grid5.coords t) ((dat5 V c).after 2 t) = _
  rw [after5_2]
  unfold out5_2
  rw [View.canon_unit_zero zero_origin]
  simp only [View.ld_unit_zero (S := S5000x128) zero_origin, View.ld_unit_zero (S := S128x128) zero_origin]
  obtain ⟨e0, e1, e2, e3, e4, e5⟩ := block_rows t
  have hN : cfg5.N = 10 := N_5
  have ht : t.val < 10 := by have := t.isLt; omega
  funext j
  obtain ⟨p, q, rfl⟩ : ∃ (p : Fin 5000) (q : Fin 128), j = ix2 p q := ⟨j 0, j 1, eq_ix2 j⟩
  unfold k5_pay1
  simp only [shapeCast_self]
  refine (Cert.MatmulAt.block_eq_whole (by decide) (V c main_v122) (V c main_arg13) (iblk5 V c 0 t) (iblk5 V c 1 t) t.val ht ?_ ?_ p q).trans ?_
  · intro p' k'
    show V c main_v122 (((cfg5.win 0).blk t).view.emb (ix2 p' k')) = V c main_v122 (ix2 ⟨5000 * t.val + p'.val, by omega⟩ k')
    refine congrArg (V c main_v122) (funext fun a => Fin.ext ?_)
    match a with
    | ⟨0, _⟩ => show win5_0.index t (0 : Fin 2) * 5000 + 1 * p'.val = 5000 * t.val + p'.val; omega
    | ⟨1, _⟩ => show win5_0.index t (1 : Fin 2) * 128 + 1 * k'.val = k'.val; omega
  · intro k' q'
    show V c main_arg13 (((cfg5.win 1).blk t).view.emb (ix2 k' q')) = V c main_arg13 (ix2 k' q')
    refine congrArg (V c main_arg13) (funext fun a => Fin.ext ?_)
    match a with
    | ⟨0, _⟩ => show win5_1.index t (0 : Fin 2) * 128 + 1 * k'.val = k'.val; omega
    | ⟨1, _⟩ => show win5_1.index t (1 : Fin 2) * 128 + 1 * q'.val = q'.val; omega
  · show product V c (ix2 ⟨5000 * t.val + p.val, by omega⟩ q) = product V c (((cfg5.win 2).blk t).view.emb (ix2 p q))
    refine congrArg (product V c) (funext fun a => Fin.ext ?_)
    match a with
    | ⟨0, _⟩ => show 5000 * t.val + p.val = win5_2.index t (0 : Fin 2) * 5000 + 1 * p.val; omega
    | ⟨1, _⟩ => show q.val = win5_2.index t (1 : Fin 2) * 128 + 1 * q.val; omega

/-- An index of the output array is in point t's block iff each coordinate is in the block's range on its axis. -/
theorem mem_block (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v123).slice (win5_2.rect t)).set ↔ _
  rw [View.set_slice_whole, Rect.mem_set_unit]
  exact Iff.rfl

/-- Every row of the output lies in the block of the point numbered by its quotient by 5000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by omega⟩
  obtain ⟨e0, e1, e2, e3, e4, e5⟩ := block_rows t
  have e4' : win5_2.index t (0 : Fin 2) = (i 0).val / 5000 := e4
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the launch the output array is the whole product of the two arrays as the launch found them. -/
theorem output_eq (c : Dev nD) : (dat5 V c).arrAt 2 cfg5.N = product V c :=
  (dat5 V c).arrAt_eq_of_cover 2 (product V c) (fun t _ => flushed_eq V c t) (covered)

end Cert.KernelIdeal.Region5

end
-- ==== Proof.Region6.lean ====
/-
  The last launch of the network: one grid point, every window its whole array.

  The launch stages the 512 x 128 pooled features, the 128 x 32 weight and the 1 x 32 bias row whole, computes
  product-plus-bias, and writes the 512 x 32 result back whole. So after the launch the output array is that one
  function of the three arrays as the launch found them.
-/
import proofs.«101254_j1597727834503_1_alg».proof.Proof.Gen.KernelIdeal.Frame
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_origin : (![0, 0] : Fin 2 → Nat) = fun _ => 0 := funext fun a => by fin_cases a <;> rfl

/-- The printed index maps at the one grid point: every window at its block 0 on both axes. -/
theorem block_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Product-plus-bias of the three arrays the launch reads. -/
abbrev result (c : Dev nD) : S512x32.Idx → EReal :=
  k6_pay1 (F := Ideal) (V c main_v151) (V c main_arg15) (V c main_v152)

/-- The one point's blocks of the three input windows are the arrays themselves. -/
theorem block0 (c : Dev nD) (t : Fin cfg6.N) : iblk6 V c 0 t = V c main_v151 := by
  obtain ⟨e0, e1, e2, e3, e4, e5, e6, e7⟩ := block_zero t
  funext y
  show V c main_v151 (((cfg6.win 0).blk t).view.emb y) = V c main_v151 y
  refine congrArg (V c main_v151) (funext fun a => Fin.ext ?_)
  match a with
  | ⟨0, _⟩ => show win6_0.index t (0 : Fin 2) * 512 + 1 * (y 0).val = (y 0).val; omega
  | ⟨1, _⟩ => show win6_0.index t (1 : Fin 2) * 128 + 1 * (y 1).val = (y 1).val; omega
theorem block1 (c : Dev nD) (t : Fin cfg6.N) : iblk6 V c 1 t = V c main_arg15 := by
  obtain ⟨e0, e1, e2, e3, e4, e5, e6, e7⟩ := block_zero t
  funext y
  show V c main_arg15 (((cfg6.win 1).blk t).view.emb y) = V c main_arg15 y
  refine congrArg (V c main_arg15) (funext fun a => Fin.ext ?_)
  match a with
  | ⟨0, _⟩ => show win6_1.index t (0 : Fin 2) * 128 + 1 * (y 0).val = (y 0).val; omega
  | ⟨1, _⟩ => show win6_1.index t (1 : Fin 2) * 32 + 1 * (y 1).val = (y 1).val; omega
theorem block2 (c : Dev nD) (t : Fin cfg6.N) : iblk6 V c 2 t = V c main_v152 := by
  obtain ⟨e0, e1, e2, e3, e4, e5, e6, e7⟩ := block_zero t
  funext y
  show V c main_v152 (((cfg6.win 2).blk t).view.emb y) = V c main_v152 y
  refine congrArg (V c main_v152) (funext fun a => Fin.ext ?_)
  match a with
  | ⟨0, _⟩ => show win6_2.index t (0 : Fin 2) * 1 + 1 * (y 0).val = (y 0).val; omega
  | ⟨1, _⟩ => show win6_2.index t (1 : Fin 2) * 32 + 1 * (y 1).val = (y 1).val; omega

/-- What the one point writes back is the whole result. -/
theorem flushed_eq (c : Dev nD) (t : Fin cfg6.N) :
    (dat6 V c).flushed 3 t = ((cfg6.win 3).blk t).view.read (Elt Ideal) (result V c) := by
  show (cfg6.win 3).cut (grid6.coords t) ((dat6 V c).after 3 t) = _
  rw [after6_3]
  unfold out6_3
  rw [View.canon_unit_zero zero_origin]
  simp only [View.ld_unit_zero (S := S512x128) zero_origin, View.ld_unit_zero (S := S128x32) zero_origin,
    View.ld_unit_zero (S := S1x32) zero_origin]
  rw [block0 V c t, block1 V c t, block2 V c t]
  obtain ⟨e0, e1, e2, e3, e4, e5, e6, e7⟩ := block_zero t
  funext j
  show result V c j = result V c (((cfg6.win 3).blk t).view.emb j)
  refine congrArg (result V c) (funext fun a => Fin.ext ?_)
  match a with
  | ⟨0, _⟩ => show (j 0).val = win6_3.index t (0 : Fin 2) * 512 + 1 * (j 0).val; omega
  | ⟨1, _⟩ => show (j 1).val = win6_3.index t (1 : Fin 2) * 32 + 1 * (j 1).val; omega

/-- An index of the output array is in the point's block iff each coordinate is in the block's range on its axis. -/
theorem mem_block (t : Fin cfg6.N) (i : S512x32.Idx) :
    i ∈ ((cfg6.win 3).blk t).view.set ↔ ∀ a : Fin 2, win6_3.index t a * S512x32.size a ≤ (i a).val ∧ (i a).val < win6_3.index t a * S512x32.size a + S512x32.size a := by
  show i ∈ ((View.whole main_v153).slice (win6_3.rect t)).set ↔ _
  rw [View.set_slice_whole, Rect.mem_set_unit]
  exact Iff.rfl

/-- The one block is the whole output. -/
theorem covered (i : S512x32.Idx) :
    ∃ t : Fin cfg6.N, (cfg6.win 3).flush t = true ∧ i ∈ ((cfg6.win 3).blk t).view.set := by
  have hi0 : (i 0).val < 512 := (i 0).isLt
  have hi1 : (i 1).val < 32 := (i 1).isLt
  obtain ⟨e0, e1, e2, e3, e4, e5, e6, e7⟩ := block_zero t6_0
  refine ⟨t6_0, flush6_3 t6_0, ?_⟩
  rw [mem_block]
  intro a
  match a with
  | ⟨0, _⟩ => show win6_3.index t6_0 (0 : Fin 2) * 512 ≤ (i 0).val ∧ (i 0).val < win6_3.index t6_0 (0 : Fin 2) * 512 + 512; omega
  | ⟨1, _⟩ => show win6_3.index t6_0 (1 : Fin 2) * 32 ≤ (i 1).val ∧ (i 1).val < win6_3.index t6_0 (1 : Fin 2) * 32 + 32; omega

/-- After the launch the output array is product-plus-bias of the three arrays as the launch found them. -/
theorem output_eq (c : Dev nD) : (dat6 V c).arrAt 3 cfg6.N = result V c :=
  (dat6 V c).arrAt_eq_of_cover 3 (result V c) (fun t _ => flushed_eq V c t) (covered)

end Cert.KernelIdeal.Region6

end
-- ==== Proof.LinearAt.lean ====
/-
  The last step of the network, read entry by entry over the extended reals.

  The kernel multiplies the 512 x 128 pooled features (rounded to a narrower format: the identity here) by the
  128 x 32 weight into zeros and adds the 32 biases, kept as a 1 x 32 row and laid down the 512 rows. The reference
  takes one product of the same two arrays and adds the bias vector laid first into a 1 x 32 row and then down the rows.
  Entry (r, c) of either is the sum over k of P (r, k) * W (k, c), plus bias c.
-/
import proofs.«101254_j1597727834503_1_alg».proof.Proof.MatmulAt

noncomputable section

open scoped BigOperators

namespace Cert.LinearAt

open Idealize.ShloMosaic Idealize.ShloMosaic.ValueIdx

local notation "P512" => (⟨2, ![512, 128]⟩ : Shape)
local notation "W32" => (⟨2, ![128, 32]⟩ : Shape)
local notation "O512" => (⟨2, ![512, 32]⟩ : Shape)
local notation "R32" => (⟨2, ![1, 32]⟩ : Shape)
local notation "B32" => (⟨1, ![32]⟩ : Shape)

/-- The kernel's last product is a plain 512 x 128 by 128 x 32 product. -/
theorem plain_last : PlainDot (M := 512) (K := 128) (N := 32) Cert.KernelIdeal.dot_S512x128_S128x32_S512x32_1_0_0_1_n_n where
  rank := rfl
  size := rfl
  l0 := fun j q => by simp [DotDims.lhsIdx, Cert.KernelIdeal.dot_S512x128_S128x32_S512x32_1_0_0_1_n_n]; rfl
  l1 := fun j q => by simp [DotDims.lhsIdx, Cert.KernelIdeal.dot_S512x128_S128x32_S512x32_1_0_0_1_n_n]; rfl
  r0 := fun j q => by simp [DotDims.rhsIdx, Cert.KernelIdeal.dot_S512x128_S128x32_S512x32_1_0_0_1_n_n]; rfl
  r1 := fun j q => by simp [DotDims.rhsIdx, Cert.KernelIdeal.dot_S512x128_S128x32_S512x32_1_0_0_1_n_n]; rfl

/-- The reference's last product likewise. -/
theorem plain_last_ref : PlainDot (M := 512) (K := 128) (N := 32) Cert.ReferenceIdeal.dot_S512x128_S128x32_S512x32_1_0_0_1_n_n where
  rank := rfl
  size := rfl
  l0 := fun j q => by simp [DotDims.lhsIdx, Cert.ReferenceIdeal.dot_S512x128_S128x32_S512x32_1_0_0_1_n_n]; rfl
  l1 := fun j q => by simp [DotDims.lhsIdx, Cert.ReferenceIdeal.dot_S512x128_S128x32_S512x32_1_0_0_1_n_n]; rfl
  r0 := fun j q => by simp [DotDims.rhsIdx, Cert.ReferenceIdeal.dot_S512x128_S128x32_S512x32_1_0_0_1_n_n]; rfl
  r1 := fun j q => by simp [DotDims.rhsIdx, Cert.ReferenceIdeal.dot_S512x128_S128x32_S512x32_1_0_0_1_n_n]; rfl

/-- THE TWO LAST STEPS ARE ONE FUNCTION of the pooled features, the weight and the bias vector. -/
theorem last_step (hbits : FTy.bf16.bits < FTy.f32.bits)
    (x : FVec Ideal P512 .f32) (w : FVec Ideal W32 .f32) (a : FVec Ideal B32 .f32)
    (h1 : Shape.ShapeCasts B32 R32) (hb : Shape.Broadcasts R32 O512)
    (hd1 : Shape.BroadcastsInDim B32 R32 ![1]) (hd2 : Shape.BroadcastsInDim R32 O512 ![0, 1]) :
    addf (matmul Cert.KernelIdeal.dot_S512x128_S128x32_S512x32_1_0_0_1_n_n none (truncf .bf16 x hbits) (truncf .bf16 w hbits)
            (constant O512 .f32 0x00000000#32))
         (broadcastTo O512 (shapeCast R32 a h1) hb)
      = addf (Host.dotGeneral Cert.ReferenceIdeal.dot_S512x128_S128x32_S512x32_1_0_0_1_n_n none x w)
          (broadcastInDim O512 ![0, 1] hd2 (broadcastInDim R32 ![1] hd1 a)) := by
  funext i
  obtain ⟨r, c, rfl⟩ : ∃ (r : Fin 512) (c : Fin 32), i = ix2 r c := ⟨i 0, i 1, eq_ix2 i⟩
  show FloatOps.addf _ _ = FloatOps.addf _ _
  have e1 : matmul Cert.KernelIdeal.dot_S512x128_S128x32_S512x32_1_0_0_1_n_n none (truncf .bf16 x hbits) (truncf .bf16 w hbits)
            (constant O512 .f32 0x00000000#32) (ix2 r c)
        = Host.dotGeneral Cert.ReferenceIdeal.dot_S512x128_S128x32_S512x32_1_0_0_1_n_n none x w (ix2 r c) :=
    (matmul_zero_ix2_any plain_last none _ _ r c).trans (dotGeneral_ix2_any plain_last_ref none .single x w r c).symm
  have e2 : broadcastTo O512 (shapeCast R32 a h1) hb (ix2 r c) = a (ix1 c) :=
    (broadcastTo_1b_ab_apply _ hb r c).trans (shapeCast_a_1a_apply a h1 0 c)
  have e3 : broadcastInDim O512 ![0, 1] hd2 (broadcastInDim R32 ![1] hd1 a) (ix2 r c) = a (ix1 c) :=
    (broadcastInDim_oneRow_apply hd2 _ r c).trans (broadcastInDim_apply ![1] hd1 a (ix2 (0 : Fin 1) c) (ix1 c) (by
      intro ax
      match ax with
      | ⟨0, _⟩ => rfl))
  rw [e1, e2, e3]

end Cert.LinearAt

end
-- ==== Proof.LibHostRun.lean ====
/-
  Two general facts about a straight line of host operations.
  The contents after a concatenation of two lines are the contents after the second line, from the contents after the first.
  A two-operand concatenate is a function of its two operands' contents only: equal contents, operand by operand, give
  equal results (a congruence rule for the operand list, which is a list of shape-and-array pairs).
-/
import Idealize.ShloMosaic.Lib.StableHlo.Run

noncomputable section

namespace Idealize.ShloMosaic.StableHlo

open Idealize.ShloMosaic

/-- Running `l₁ ++ l₂` is running `l₁`, then `l₂`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A two-operand concatenate with equal operands' contents. -/
theorem concat2_congr {α : Type} {t s₁ s₂ : Shape} (ax : Fin t.rank) (a a' : s₁.Idx → α) (b b' : s₂.Idx → α) (h)
    (ha : a = a') (hb : b = b') :
    concatenate t ax [⟨s₁, a⟩, ⟨s₂, b⟩] h = concatenate t ax [⟨s₁, a'⟩, ⟨s₂, b'⟩] h := by subst ha hb; rfl

end Idealize.ShloMosaic.StableHlo

end
-- ==== Proof.Chain.lean ====
/-
  The idealized kernel's result as the reference's own function of the arguments.

  Both programs are the same six-layer graph convolution followed by a mean pool and a linear layer. The edge list with
  self loops, its destinations and the symmetric normalisation are computed by the same host operations in both; each
  layer multiplies the features by a weight, gathers rows along the edges, scales them, scatter-adds them at the
  destinations and adds a bias, with a rectifier after all layers but the last. The kernel performs each dense product
  in a launch of its own — ten blocks of rows for the six layers, one block for the last step — and by the launch
  lemmas each launch's output array is the plain product (plus bias, for the last) of the arrays it read. So, walking
  @main's fold boundary by boundary, every buffer the next piece reads holds the value the reference's same-numbered
  operation computes from the arguments; at the end the result buffer holds the reference's result.
-/
import proofs.«101254_j1597727834503_1_alg».proof.Proof.Gen.KernelIdeal.Frame
import proofs.«101254_j1597727834503_1_alg».proof.Proof.Kept
import proofs.«101254_j1597727834503_1_alg».proof.Proof.Region0
import proofs.«101254_j1597727834503_1_alg».proof.Proof.Region1
import proofs.«101254_j1597727834503_1_alg».proof.Proof.Region2
import proofs.«101254_j1597727834503_1_alg».proof.Proof.Region3
import proofs.«101254_j1597727834503_1_alg».proof.Proof.Region4
import proofs.«101254_j1597727834503_1_alg».proof.Proof.Region5
import proofs.«101254_j1597727834503_1_alg».proof.Proof.Region6
import proofs.«101254_j1597727834503_1_alg».proof.Proof.LinearAt
import proofs.«101254_j1597727834503_1_alg».proof.Proof.ReadPatched
import proofs.«101254_j1597727834503_1_alg».proof.Proof.LibHostRun
import Idealize.ShloMosaic.Lib.StableHlo.Run

set_option maxRecDepth 16384
set_option quotPrecheck false

noncomputable section

namespace Cert.KernelIdeal.Chain

open Idealize.ShloMosaic Idealize.ShloMosaic.TcCoe
open Idealize.SL Idealize.SL.Sem
open Cert.KernelIdeal Cert.KernelIdeal.Gen
open Idealize.ShloMosaic.StableHlo (after_cons after_nil)

variable (m : (ℓ : Loc nD τ sig) → Buf (Elt Ideal) ℓ) (ρ : Dev nD → PrngReg) (c : Dev nD)
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-! ## Before the first launch: the edges and their normalisation -/

-- a two-operand concatenate is a function of its two operands' contents
attribute [local congr] Idealize.ShloMosaic.StableHlo.concat2_congr

/-- Sources of the edges, self loops appended. -/
theorem src1 : W1 m ρ c (Proc.devRef .tc main_v3) = Cert.ReferenceIdeal.Read.val_main_v3 (F := Ideal) a1 := by
  show StableHlo.after hostOps0 (W0 m ρ c) (Proc.devRef .tc main_v3) = _
  simp only [hostOps0]
  after_results_simp
  rfl

/-- Destinations of the edges, self loops appended. -/
theorem dst1 : W1 m ρ c (Proc.devRef .tc main_v7) = Cert.ReferenceIdeal.Read.val_main_v7 (F := Ideal) a1 := by
  show StableHlo.after hostOps0 (W0 m ρ c) (Proc.devRef .tc main_v7) = _
  simp only [hostOps0]
  after_results_simp
  rfl

/-- Which nodes have a positive degree. -/
theorem deg_pos1 : W1 m ρ c (Proc.devRef .tc main_v13) = Cert.ReferenceIdeal.Read.val_main_v13 (F := Ideal) a1 := by
  show StableHlo.after hostOps0 (W0 m ρ c) (Proc.devRef .tc main_v13) = _
  simp only [hostOps0]
  after_results_simp
  rfl

/-- The inverse square root of each degree, the degree raised to at least one. -/
theorem deg_rsqrt1 : W1 m ρ c (Proc.devRef .tc main_v16) = Cert.ReferenceIdeal.Read.val_main_v16 (F := Ideal) a1 := by
  show StableHlo.after hostOps0 (W0 m ρ c) (Proc.devRef .tc main_v16) = _
  simp only [hostOps0]
  after_results_simp
  rfl

/-- The scalar zero the isolated nodes get. -/
theorem zero1 : W1 m ρ c (Proc.devRef .tc main_cst_3) = Cert.ReferenceIdeal.Read.val_main_cst_3 (F := Ideal) := by
  show StableHlo.after hostOps0 (W0 m ρ c) (Proc.devRef .tc main_cst_3) = _
  simp only [hostOps0]
  after_results_simp
  rfl

/-- The inverse square roots, zero at the isolated nodes. -/
theorem inv_sqrt2 : W2 m ρ c (Proc.devRef .tc main_v17) = Cert.ReferenceIdeal.Read.val_main_v17 (F := Ideal) a1 := by
  have e13 := deg_pos1 m ρ c
  have e16 := deg_rsqrt1 m ρ c
  have ec := zero1 m ρ c
  show StableHlo.after hostOps0_1 (W1 m ρ c) (Proc.devRef .tc main_v17) = _
  generalize W1 m ρ c = U at e13 e16 ec ⊢
  simp only [hostOps0_1]
  after_results_simp
  simp only [StableHlo.TRef.toBuf, StableHlo.TRef.ofBuf, cast_eq]
  rw [e13, e16, ec]
  rfl

theorem src2 : W2 m ρ c (Proc.devRef .tc main_v3) = Cert.ReferenceIdeal.Read.val_main_v3 (F := Ideal) a1 :=
  (StableHlo.after_of_writes_sub hostOps0_1 _ Kept.writes0_1 (by decide)).trans (src1 m ρ c)
theorem dst2 : W2 m ρ c (Proc.devRef .tc main_v7) = Cert.ReferenceIdeal.Read.val_main_v7 (F := Ideal) a1 :=
  (StableHlo.after_of_writes_sub hostOps0_1 _ Kept.writes0_1 (by decide)).trans (dst1 m ρ c)

/-- Sources of the edges at the first launch's entry. -/
theorem src3 : W3 m ρ c (Proc.devRef .tc main_v3) = Cert.ReferenceIdeal.Read.val_main_v3 (F := Ideal) a1 :=
  (StableHlo.after_of_writes_sub hostOps0_2 _ Kept.writes0_2 (by decide)).trans (src2 m ρ c)
/-- Destinations of the edges at the first launch's entry. -/
theorem dst3 : W3 m ρ c (Proc.devRef .tc main_v7) = Cert.ReferenceIdeal.Read.val_main_v7 (F := Ideal) a1 :=
  (StableHlo.after_of_writes_sub hostOps0_2 _ Kept.writes0_2 (by decide)).trans (dst2 m ρ c)

/-- The per-edge normalisation: the inverse square roots at the two endpoints, multiplied. -/
theorem norm3 : W3 m ρ c (Proc.devRef .tc main_v32) = Cert.ReferenceIdeal.Read.val_main_v32 (F := Ideal) a1 := by
  have e3 := src2 m ρ c
  have e7 := dst2 m ρ c
  have e17 := inv_sqrt2 m ρ c
  show StableHlo.after hostOps0_2 (W2 m ρ c) (Proc.devRef .tc main_v32) = _
  generalize W2 m ρ c = U at e3 e7 e17 ⊢
  simp only [hostOps0_2]
  after_results_simp
  rw [e3, e7, e17]
  rfl

/-! ## Layer by layer -/

/-- The first dense product: the node features times the first weight. -/
theorem prod0 : W4 m ρ c (Proc.devRef .tc main_v33) = Cert.ReferenceIdeal.Read.val_main_v33 (F := Ideal) a0 a3 :=
  (W4_arr m ρ c 2).trans ((Region0.output_eq (V3 m ρ) c).trans (by
    unfold Region0.product
    rw [show V3 m ρ c main_arg0 = a0 from Kept.at3 m ρ c main_arg0 (by decide),
      show V3 m ρ c main_arg3 = a3 from Kept.at3 m ρ c main_arg3 (by decide)]
    rfl))

/-- Layer 1 before the rectifier: gather along the edges, scale, scatter-add at the destinations, add the bias. -/
theorem layer1 : W5 m ρ c (Proc.devRef .tc main_v49) = Cert.ReferenceIdeal.Read.val_main_v49 (F := Ideal) a0 a1 a3 a4 := by
  show StableHlo.after hostOps1 (W4 m ρ c) (Proc.devRef .tc main_v49) = _
  simp only [hostOps1]
  after_results_simp
  rw [Kept.to4 m ρ c main_v32 (by decide), Kept.to4 m ρ c main_v3 (by decide), Kept.to4 m ρ c main_v7 (by decide),
    Kept.to4 m ρ c main_arg4 (by decide), norm3, src3, dst3, Kept.at3 m ρ c main_arg4 (by decide), prod0]
  rfl

/-- Layer 1's features: the rectifier applied. -/
theorem feat1 : W6 m ρ c (Proc.devRef .tc main_v50) = Cert.ReferenceIdeal.Read.val_main_v50 (F := Ideal) a0 a1 a3 a4 := by
  have e := layer1 m ρ c
  show StableHlo.after hostOps1_1 (W5 m ρ c) (Proc.devRef .tc main_v50) = _
  generalize W5 m ρ c = U at e ⊢
  simp only [hostOps1_1]
  after_results_simp
  simp only [StableHlo.TRef.toBuf, StableHlo.TRef.ofBuf, cast_eq]
  rw [e]
  rfl

/-- The next dense product: those features times the next weight. -/
theorem prod1 : W7 m ρ c (Proc.devRef .tc main_v51) = Cert.ReferenceIdeal.Read.val_main_v51 (F := Ideal) a0 a1 a3 a4 a5 :=
  (W7_arr m ρ c 2).trans ((Region1.output_eq (V6 m ρ) c).trans (by
    unfold Region1.product
    rw [show V6 m ρ c main_v50 = _ from feat1 m ρ c,
      show V6 m ρ c main_arg5 = a5 from (Kept.to6 m ρ c main_arg5 (by decide)).trans (Kept.at3 m ρ c main_arg5 (by decide))]
    rfl))

/-- Layer 2 before the rectifier: gather along the edges, scale, scatter-add at the destinations, add the bias. -/
theorem layer2 : W8 m ρ c (Proc.devRef .tc main_v67) = Cert.ReferenceIdeal.Read.val_main_v67 (F := Ideal) a0 a1 a3 a4 a5 a6 := by
  show StableHlo.after hostOps2 (W7 m ρ c) (Proc.devRef .tc main_v67) = _
  simp only [hostOps2]
  after_results_simp
  rw [Kept.to7 m ρ c main_v32 (by decide), Kept.to7 m ρ c main_v3 (by decide), Kept.to7 m ρ c main_v7 (by decide),
    Kept.to7 m ρ c main_arg6 (by decide), norm3, src3, dst3, Kept.at3 m ρ c main_arg6 (by decide), prod1]
  rfl

/-- Layer 2's features: the rectifier applied. -/
theorem feat2 : W9 m ρ c (Proc.devRef .tc main_v68) = Cert.ReferenceIdeal.Read.val_main_v68 (F := Ideal) a0 a1 a3 a4 a5 a6 := by
  have e := layer2 m ρ c
  show StableHlo.after hostOps2_1 (W8 m ρ c) (Proc.devRef .tc main_v68) = _
  generalize W8 m ρ c = U at e ⊢
  simp only [hostOps2_1]
  after_results_simp
  simp only [StableHlo.TRef.toBuf, StableHlo.TRef.ofBuf, cast_eq]
  rw [e]
  rfl

/-- The next dense product: those features times the next weight. -/
theorem prod2 : W10 m ρ c (Proc.devRef .tc main_v69) = Cert.ReferenceIdeal.Read.val_main_v69 (F := Ideal) a0 a1 a3 a4 a5 a6 a7 :=
  (W10_arr m ρ c 2).trans ((Region2.output_eq (V9 m ρ) c).trans (by
    unfold Region2.product
    rw [show V9 m ρ c main_v68 = _ from feat2 m ρ c,
      show V9 m ρ c main_arg7 = a7 from (Kept.to9 m ρ c main_arg7 (by decide)).trans (Kept.at3 m ρ c main_arg7 (by decide))]
    rfl))

/-- Layer 3 before the rectifier: gather along the edges, scale, scatter-add at the destinations, add the bias. -/
theorem layer3 : W11 m ρ c (Proc.devRef .tc main_v85) = Cert.ReferenceIdeal.Read.val_main_v85 (F := Ideal) a0 a1 a3 a4 a5 a6 a7 a8 := by
  show StableHlo.after hostOps3 (W10 m ρ c) (Proc.devRef .tc main_v85) = _
  simp only [hostOps3]
  after_results_simp
  rw [Kept.to10 m ρ c main_v32 (by decide), Kept.to10 m ρ c main_v3 (by decide), Kept.to10 m ρ c main_v7 (by decide),
    Kept.to10 m ρ c main_arg8 (by decide), norm3, src3, dst3, Kept.at3 m ρ c main_arg8 (by decide), prod2]
  rfl

/-- Layer 3's features: the rectifier applied. -/
theorem feat3 : W12 m ρ c (Proc.devRef .tc main_v86) = Cert.ReferenceIdeal.Read.val_main_v86 (F := Ideal) a0 a1 a3 a4 a5 a6 a7 a8 := by
  have e := layer3 m ρ c
  show StableHlo.after hostOps3_1 (W11 m ρ c) (Proc.devRef .tc main_v86) = _
  generalize W11 m ρ c = U at e ⊢
  simp only [hostOps3_1]
  after_results_simp
  simp only [StableHlo.TRef.toBuf, StableHlo.TRef.ofBuf, cast_eq]
  rw [e]
  rfl

/-- The next dense product: those features times the next weight. -/
theorem prod3 : W13 m ρ c (Proc.devRef .tc main_v87) = Cert.ReferenceIdeal.Read.val_main_v87 (F := Ideal) a0 a1 a3 a4 a5 a6 a7 a8 a9 :=
  (W13_arr m ρ c 2).trans ((Region3.output_eq (V12 m ρ) c).trans (by
    unfold Region3.product
    rw [show V12 m ρ c main_v86 = _ from feat3 m ρ c,
      show V12 m ρ c main_arg9 = a9 from (Kept.to12 m ρ c main_arg9 (by decide)).trans (Kept.at3 m ρ c main_arg9 (by decide))]
    rfl))

/-- Layer 4 before the rectifier: gather along the edges, scale, scatter-add at the destinations, add the bias. -/
theorem layer4 : W14 m ρ c (Proc.devRef .tc main_v103) = Cert.ReferenceIdeal.Read.val_main_v103 (F := Ideal) a0 a1 a3 a4 a5 a6 a7 a8 a9 a10 := by
  show StableHlo.after hostOps4 (W13 m ρ c) (Proc.devRef .tc main_v103) = _
  simp only [hostOps4]
  after_results_simp
  rw [Kept.to13 m ρ c main_v32 (by decide), Kept.to13 m ρ c main_v3 (by decide), Kept.to13 m ρ c main_v7 (by decide),
    Kept.to13 m ρ c main_arg10 (by decide), norm3, src3, dst3, Kept.at3 m ρ c main_arg10 (by decide), prod3]
  rfl

/-- Layer 4's features: the rectifier applied. -/
theorem feat4 : W15 m ρ c (Proc.devRef .tc main_v104) = Cert.ReferenceIdeal.Read.val_main_v104 (F := Ideal) a0 a1 a3 a4 a5 a6 a7 a8 a9 a10 := by
  have e := layer4 m ρ c
  show StableHlo.after hostOps4_1 (W14 m ρ c) (Proc.devRef .tc main_v104) = _
  generalize W14 m ρ c = U at e ⊢
  simp only [hostOps4_1]
  after_results_simp
  simp only [StableHlo.TRef.toBuf, StableHlo.TRef.ofBuf, cast_eq]
  rw [e]
  rfl

/-- The next dense product: those features times the next weight. -/
theorem prod4 : W16 m ρ c (Proc.devRef .tc main_v105) = Cert.ReferenceIdeal.Read.val_main_v105 (F := Ideal) a0 a1 a3 a4 a5 a6 a7 a8 a9 a10 a11 :=
  (W16_arr m ρ c 2).trans ((Region4.output_eq (V15 m ρ) c).trans (by
    unfold Region4.product
    rw [show V15 m ρ c main_v104 = _ from feat4 m ρ c,
      show V15 m ρ c main_arg11 = a11 from (Kept.to15 m ρ c main_arg11 (by decide)).trans (Kept.at3 m ρ c main_arg11 (by decide))]
    rfl))

/-- Layer 5 before the rectifier: gather along the edges, scale, scatter-add at the destinations, add the bias. -/
theorem layer5 : W17 m ρ c (Proc.devRef .tc main_v121) = Cert.ReferenceIdeal.Read.val_main_v121 (F := Ideal) a0 a1 a3 a4 a5 a6 a7 a8 a9 a10 a11 a12 := by
  show StableHlo.after hostOps5 (W16 m ρ c) (Proc.devRef .tc main_v121) = _
  simp only [hostOps5]
  after_results_simp
  rw [Kept.to16 m ρ c main_v32 (by decide), Kept.to16 m ρ c main_v3 (by decide), Kept.to16 m ρ c main_v7 (by decide),
    Kept.to16 m ρ c main_arg12 (by decide), norm3, src3, dst3, Kept.at3 m ρ c main_arg12 (by decide), prod4]
  rfl

/-- Layer 5's features: the rectifier applied. -/
theorem feat5 : W18 m ρ c (Proc.devRef .tc main_v122) = Cert.ReferenceIdeal.Read.val_main_v122 (F := Ideal) a0 a1 a3 a4 a5 a6 a7 a8 a9 a10 a11 a12 := by
  have e := layer5 m ρ c
  show StableHlo.after hostOps5_1 (W17 m ρ c) (Proc.devRef .tc main_v122) = _
  generalize W17 m ρ c = U at e ⊢
  simp only [hostOps5_1]
  after_results_simp
  simp only [StableHlo.TRef.toBuf, StableHlo.TRef.ofBuf, cast_eq]
  rw [e]
  rfl

/-- The next dense product: those features times the next weight. -/
theorem prod5 : W19 m ρ c (Proc.devRef .tc main_v123) = Cert.ReferenceIdeal.Read.val_main_v123 (F := Ideal) a0 a1 a3 a4 a5 a6 a7 a8 a9 a10 a11 a12 a13 :=
  (W19_arr m ρ c 2).trans ((Region5.output_eq (V18 m ρ) c).trans (by
    unfold Region5.product
    rw [show V18 m ρ c main_v122 = _ from feat5 m ρ c,
      show V18 m ρ c main_arg13 = a13 from (Kept.to18 m ρ c main_arg13 (by decide)).trans (Kept.at3 m ρ c main_arg13 (by decide))]
    rfl))

/-! ## The last layer, the mean pool and the linear step -/

/-- The pooled features: the last layer's output summed per graph and divided by the graph's node count. -/
theorem pooled : W20 m ρ c (Proc.devRef .tc main_v151) = Cert.ReferenceIdeal.Read.val_main_v151 (F := Ideal) a0 a1 a2 a3 a4 a5 a6 a7 a8 a9 a10 a11 a12 a13 a14 := by
  show StableHlo.after hostOps6 (W19 m ρ c) (Proc.devRef .tc main_v151) = _
  simp only [hostOps6]
  after_results_simp
  rw [Kept.to19 m ρ c main_v32 (by decide), Kept.to19 m ρ c main_v3 (by decide), Kept.to19 m ρ c main_v7 (by decide),
    Kept.to19 m ρ c main_arg14 (by decide), Kept.to19 m ρ c main_arg2 (by decide), norm3, src3, dst3,
    Kept.at3 m ρ c main_arg14 (by decide), Kept.at3 m ρ c main_arg2 (by decide), prod5]
  rfl

/-- The bias vector as a 1 x 32 row. -/
theorem bias_row : W20 m ρ c (Proc.devRef .tc main_v152) = shapeCast S1x32 a16 Facts₀.shapeCasts_S32_S1x32 := by
  show StableHlo.after hostOps6 (W19 m ρ c) (Proc.devRef .tc main_v152) = _
  simp only [hostOps6]
  after_results_simp
  rw [Kept.to19 m ρ c main_arg16 (by decide), Kept.at3 m ρ c main_arg16 (by decide)]
  rfl

/-- THE RESULT: the kernel's result buffer holds the reference's result, as a function of the kernel's arguments. -/
theorem result_eq : W21 m ρ c (Proc.devRef .tc main_v153)
    = Cert.ReferenceIdeal.Read.val_main_v155 (F := Ideal) a0 a1 a2 a3 a4 a5 a6 a7 a8 a9 a10 a11 a12 a13 a14 a15 a16 :=
  (W21_arr m ρ c 3).trans ((Region6.output_eq (V20 m ρ) c).trans (by
    unfold Region6.result
    rw [show V20 m ρ c main_v151 = _ from pooled m ρ c, show V20 m ρ c main_v152 = _ from bias_row m ρ c,
      show V20 m ρ c main_arg15 = a15 from (Kept.to20 m ρ c main_arg15 (by decide)).trans (Kept.at3 m ρ c main_arg15 (by decide))]
    unfold k6_pay1
    simp only [shapeCast_self]
    exact Cert.LinearAt.last_step (by decide) _ _ _ _ _ Cert.ReferenceIdeal.Facts₀.bcast_S32_S1x32_1 Cert.ReferenceIdeal.Facts₀.bcast_S1x32_S512x32_0_1))

end Cert.KernelIdeal.Chain

end
-- ==== Proof.lean ====
/-
  A six-layer graph convolution with a mean pool and a linear step: the kernel's idealization against its reference.

  The two programs run the same host operations on the same arguments — the edge list with self loops, the symmetric
  degree normalisation, per layer a row gather along the edges, a scaling, a scatter-add at the destinations, a bias
  and a rectifier, then the per-graph mean and the linear step — and differ only in how the seven dense products are
  taken: the reference takes each as one product of whole arrays, the kernel in a launch of its own, ten blocks of 5000
  rows at a time for the layers (the operands rounded to a narrower float format on the way in, which is the identity
  on the extended reals) and in one block, with the bias added inside, for the linear step. A block product into zeros
  and the whole product are the same finite sum over the inner index, entry by entry, and the ten blocks tile the
  output; so at every boundary of the kernel's run each buffer holds what the reference's same operation computes, and
  the two results are one function of the arguments (Chain.lean). No law of real arithmetic beyond reading a product as
  a sum is used, so the precondition is never opened. The idealization rewrote no operation, so "preserves" is trivial.
-/
import proofs.«101254_j1597727834503_1_alg».proof.Defs
import proofs.«101254_j1597727834503_1_alg».proof.Proof.Gen.Kernel
import proofs.«101254_j1597727834503_1_alg».proof.Proof.Gen.Kernel.Skeleton
import proofs.«101254_j1597727834503_1_alg».proof.Proof.Gen.Kernel.Launch
import proofs.«101254_j1597727834503_1_alg».proof.Proof.Gen.Kernel.Points
import proofs.«101254_j1597727834503_1_alg».proof.Proof.Gen.Kernel.Frame
import proofs.«101254_j1597727834503_1_alg».proof.Proof.Gen.KernelIdeal
import proofs.«101254_j1597727834503_1_alg».proof.Proof.Gen.KernelIdeal.Skeleton
import proofs.«101254_j1597727834503_1_alg».proof.Proof.Gen.KernelIdeal.Launch
import proofs.«101254_j1597727834503_1_alg».proof.Proof.Gen.KernelIdeal.Points
import proofs.«101254_j1597727834503_1_alg».proof.Proof.Gen.KernelIdeal.Frame
import proofs.«101254_j1597727834503_1_alg».proof.Proof.Gen.ReferenceIdeal
import proofs.«101254_j1597727834503_1_alg».proof.Proof.Gen.Pre_finite_inputs
import proofs.«101254_j1597727834503_1_alg».proof.Proof.KernelRun
import proofs.«101254_j1597727834503_1_alg».proof.Proof.Chain
import proofs.«101254_j1597727834503_1_alg».proof.Proof.RunPatched
import proofs.«101254_j1597727834503_1_alg».proof.Proof.ReadPatched
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two idealized programs end with the same result: the kernel's result buffer holds the reference's function of
    the kernel's arguments, and the reference's run ends at that function of its own arguments, which agree. -/
theorem algebraic : Cert.algebraic_KernelIdeal_ReferenceIdeal := by
  intro m ρ m' ρ' _ hagree
  refine ⟨fun c => Cert.KernelIdeal.Gen.W21 m ρ c (Proc.devRef .tc Cert.KernelIdeal.main_v153), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W21 m ρ c (Proc.devRef .tc Cert.KernelIdeal.main_v153)
  rw [Cert.ReferenceIdeal.Read.val_main_v155_eq, Cert.KernelIdeal.Chain.result_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
